-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_v13 : IVec S_ 1) (main_v15 : IVec S1600000 32) (main_v16 : IVec S1600000 32) : IVec S_ 1 :=
  let main_v17 : IVec S1600000 1 := cmpi .sge main_v15 main_v16
  let main_c_5 : IVec S_ 1 := constantI S_ 1 1#1
  let main_v18 : IVec S_ 1 := (fun x v => Host.reduce IntOp.andi x v reducesTo_S1600000_S_d0 h_S_) main_v17 main_c_5
  let main_v19 : IVec S_ 1 := andi main_v13 main_v18
  main_v19

def fn {F : FTy → Type} [FloatOps F] (main_arg0 : FVec F S100000x128 .f32) (main_arg1 : IVec S2x1600000 32) (main_arg2 : FVec F S1600000 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1x1600000 32 := (extractStridedSlice S1x1600000 ![0, 0] · slices_S2x1600000_S1x1600000_0_0) main_arg1
  let main_v15 : IVec S1600000 32 := shapeCast S1600000 main_v14 shapeCasts_S1x1600000_S1600000
  let main_c_4 : IVec S_ 32 := constantI S_ 32 0#32
  let main_v16 : IVec S1600000 32 := broadcastInDim S1600000 ![] bcast_S_S1600000 main_c_4
  fn_part1 (F := F) main_v13 main_v15 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S10000x128 : Shape := ⟨2, ![10000, 128]⟩

abbrev nBuf : Space → Nat
  | .hbm => 67
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S100000x128, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S100000x128, .f32⟩
  | .hbm, ⟨65, _⟩ => ⟨S128x128, .f32⟩
  | .hbm, ⟨66, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bitsLt_bf16_f32 : FTy.bits .bf16 < FTy.bits .f32
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v46) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_cst : Ref sig .tc := ⟨.hbm, 58, rfl⟩
abbrev main_call1_v0 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.KernelBlock.lean ====
/-
  One grid point of the kernel, read at an entry.

  The body loads a block `x0` of 10000 rows of the feature matrix and the whole weight matrix `x1`, multiplies them
  on the matrix unit into a zero accumulator (the operands' change of float format is the identity on the extended
  reals) and takes the maximum with zero. Entry `(p, q)` of what it stores is `max (∑ h, x0 (p, h) · x1 (h, q)) 0`.
-/
import proofs.«176840_j47510928228756_2_alg».proof.Proof.Gen.KernelIdeal.Skeleton
import proofs.«176840_j47510928228756_2_alg».proof.Proof.LibMatProduct
import Idealize.ShloMosaic.Lib.Pipeline.Value

noncomputable section

namespace Cert.KernelBlock

open Idealize.ShloMosaic Idealize.ShloMosaic.ValueIdx Cert.KernelIdeal Cert.KernelIdeal.Gen

/-- The stored block at `(p, q)`: the rectified inner product of row `p` of the loaded block with column `q` of the
    weights. -/
theorem pay_apply (x0 : Vec Ideal S10000x128 .f32) (x1 : Vec Ideal S128x128 .f32) (p : Fin 10000) (q : Fin 128) :
    k0_pay1 (F := Ideal) x0 x1 (ix2 p q)
      = max (∑ h : Fin 128, x0 (ix2 p h) * x1 (ix2 h q)) (Ideal.ofBits .f32 0x00000000#32) := by
  unfold k0_pay1
  simp only [shapeCast_self]
  show max (FloatOps.matmul dot_S10000x128_S128x128_S10000x128_1_0_0_1_n_n none _ _
      (constant S10000x128 .f32 0x00000000#32) (ix2 p q)) _ = _
  rw [Cert.LibMatProduct.matmul_zero_apply _ none rfl rfl rfl rfl rfl rfl]
  rfl

end Cert.KernelBlock

end
-- ==== Proof.DenseRelu.lean ====
/-
  The dense layer both programs end with, as one function of two matrices.

  For a feature matrix `A` of 100000 rows and 128 columns and a weight matrix `B` of 128 rows and 128 columns, entry
  `(i, j)` of `layer A B` is `max (∑ h, A (i, h) · B (h, j)) 0`: the matrix product followed by the rectifier. The zero
  is kept as the float word of `+0.0`, the same word in both programs, so it is never evaluated.
-/
import Idealize.ShloMosaic.Lib.ValueIdx
import Idealize.ShloMosaic.PureOps.Ideal

noncomputable section

namespace Cert.DenseRelu

open Idealize.ShloMosaic Idealize.ShloMosaic.ValueIdx

/-- The rectified product `relu (A · B)`, entry by entry. -/
def layer (A : FVec Ideal ⟨2, ![100000, 128]⟩ .f32) (B : FVec Ideal ⟨2, ![128, 128]⟩ .f32) :
    FVec Ideal ⟨2, ![100000, 128]⟩ .f32 :=
  fun i => max (∑ h : Fin 128, A (ix2 (i 0) h) * B (ix2 h (i 1))) (Ideal.ofBits .f32 0x00000000#32)

theorem layer_apply (A : FVec Ideal ⟨2, ![100000, 128]⟩ .f32) (B : FVec Ideal ⟨2, ![128, 128]⟩ .f32)
    (r : Fin 100000) (c : Fin 128) :
    layer A B (ix2 r c) = max (∑ h : Fin 128, A (ix2 r h) * B (ix2 h c)) (Ideal.ofBits .f32 0x00000000#32) := rfl

end Cert.DenseRelu

end
-- ==== Proof.KernelArray.lean ====
/-
  The kernel's result array as one function of the two arrays its call is given.

  The call runs over 10 grid points. Point `t` reads rows `10000·t … 10000·t + 9999` of the feature matrix (all 128
  columns) and the whole weight matrix, and writes the same rows of the result. What point `t` writes is therefore
  block `t` of `layer A B`, where `A` and `B` are the two arrays as the call finds them; the ten blocks cover the
  result array, so after the run the array is `layer A B`.
-/
import proofs.«176840_j47510928228756_2_alg».proof.Proof.Gen.KernelIdeal.Value
import proofs.«176840_j47510928228756_2_alg».proof.Proof.KernelBlock
import proofs.«176840_j47510928228756_2_alg».proof.Proof.DenseRelu

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The block indices over the grid: the feature block moves with the result block down the rows, the weight block
    stays at the origin, and no block leaves column block 0. -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the result is some point's. -/
theorem block_of_rows : ∀ q : Fin 10, ∃ t : Fin cfg0.N, win0_2.index t = ![q.val, 0] :=
  (by decide +kernel : ∀ q : Fin 10, ∃ t : Fin grid0.N, win0_2.index t = ![q.val, 0])

/-- A block of 10000 rows of a feature array `A`, read through the first operand's window at point `t`, holds at
    `(p, h)` the array's entry at row `r = 10000·(block index) + p`. -/
theorem read_features (A : FVec Ideal S100000x128 .f32) (t : Fin cfg0.N) (p : Fin 10000) (h : Fin 128) (r : Fin 100000)
    (hr : r.val = win0_2.index t (0 : Fin 2) * 10000 + p.val) :
    ((cfg0.win 0).blk t).view.read (Elt Ideal) A (ix2 p h) = A (ix2 r h) := by
  obtain ⟨e0, e1, -, -, -, -⟩ := block_indices t
  show A (((cfg0.win 0).blk t).view.emb (ix2 p h)) = A (ix2 r h)
  have hi : ((cfg0.win 0).blk t).view.emb (ix2 p h) = (ix2 r h : S100000x128.Idx) := by
    funext a; apply Fin.ext
    match a with
    | ⟨0, _⟩ => show win0_0.index t (0 : Fin 2) * 10000 + 1 * p.val = r.val; omega
    | ⟨1, _⟩ => show win0_0.index t (1 : Fin 2) * 128 + 1 * h.val = h.val; omega
  rw [hi]

/-- The second operand's window at every point is the whole weight array `B`. -/
theorem read_weights (B : FVec Ideal S128x128 .f32) (t : Fin cfg0.N) (h : Fin 128) (q : Fin 128) :
    ((cfg0.win 1).blk t).view.read (Elt Ideal) B (ix2 h q) = B (ix2 h q) := by
  obtain ⟨-, -, e2, e3, -, -⟩ := block_indices t
  show B (((cfg0.win 1).blk t).view.emb (ix2 h q)) = B (ix2 h q)
  have hi : ((cfg0.win 1).blk t).view.emb (ix2 h q) = (ix2 h q : S128x128.Idx) := by
    funext a; apply Fin.ext
    match a with
    | ⟨0, _⟩ => show win0_1.index t (0 : Fin 2) * 128 + 1 * h.val = h.val; omega
    | ⟨1, _⟩ => show win0_1.index t (1 : Fin 2) * 128 + 1 * q.val = q.val; omega
  rw [hi]

/-- The body's result at point `t`, from the blocks of any two arrays `A` and `B` read through the operands' windows,
    is block `t` of `layer A B`. -/
theorem point_block (A : FVec Ideal S100000x128 .f32) (B : FVec Ideal S128x128 .f32) (t : Fin cfg0.N) :
    (cfg0.win 2).cut (grid0.coords t)
        (out0_2 (((cfg0.win 0).blk t).view.read (Elt Ideal) A) (((cfg0.win 1).blk t).view.read (Elt Ideal) B))
      = ((cfg0.win 2).blk t).view.read (Elt Ideal) (Cert.DenseRelu.layer A B) := by
  unfold out0_2
  rw [View.canon_unit_zero origin]
  simp only [View.ld_unit_zero (S := S10000x128) origin, View.ld_unit_zero (S := S128x128) origin]
  obtain ⟨-, -, -, -, e4, e5⟩ := block_indices t
  funext j
  obtain ⟨p, q, rfl⟩ : ∃ (p : Fin 10000) (q : Fin 128), j = ix2 p q := ⟨j 0, j 1, eq_ix2 j⟩
  have hp : p.val < 10000 := p.isLt
  let r : Fin 100000 := ⟨win0_2.index t (0 : Fin 2) * 10000 + p.val, by omega⟩
  have hi : ((cfg0.win 2).blk t).view.emb (ix2 p q) = (ix2 r q : S100000x128.Idx) := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * q.val = q.val; omega
  show k0_pay1 (((cfg0.win 0).blk t).view.read (Elt Ideal) A) (((cfg0.win 1).blk t).view.read (Elt Ideal) B) (ix2 p q)
    = Cert.DenseRelu.layer A B (((cfg0.win 2).blk t).view.emb (ix2 p q))
  rw [hi, Cert.DenseRelu.layer_apply]
  refine (Cert.KernelBlock.pay_apply _ _ p q).trans ?_
  refine congrArg (fun s => max s (Ideal.ofBits .f32 0x00000000#32)) (Finset.sum_congr rfl fun h _ => ?_)
  rw [read_features A t p h r rfl, read_weights B t h q]

/-- What point `t` writes back is block `t` of the rectified product of the two arrays the call is given, as the
    call finds them. -/
theorem flushed_eq (c : Dev nD) (t : Fin cfg0.N) :
    (dats m 0 c).flushed 2 t = ((cfg0.win 2).blk t).view.read (Elt Ideal)
      (Cert.DenseRelu.layer (V m c (Pipeline.arrRef spec0 0)) (V m c (Pipeline.arrRef spec0 1))) := by
  rw [Cert.KernelIdeal.Value.flushed2]
  exact point_block (V m c (Pipeline.arrRef spec0 0)) (V m c (Pipeline.arrRef spec0 1)) t

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v48).slice (win0_2.rect t)).set ↔ _
  rw [View.set_slice_whole, Rect.mem_set_unit]
  exact Iff.rfl

/-- Row `i` lies in the block of the point whose block index is `i / 10000`: the blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_of_rows ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the run the result array is the rectified product of the two arrays the call was given. -/
theorem final (c : Dev nD) :
    (dats m 0 c).arrAt 2 cfg0.N
      = Cert.DenseRelu.layer (V m c (Pipeline.arrRef spec0 0)) (V m c (Pipeline.arrRef spec0 1)) :=
  (dats m 0 c).arrAt_eq_of_cover 2 _ (fun t _ => flushed_eq m c t) covered

end Cert.KernelArray

end
-- ==== Proof.Aggregate.lean ====
/-
  The sparse aggregation both programs compute before the dense layer, named once.

  Every edge `e` carries a row index, a weight `w e` and a gathered feature row `xg (e, ·)`. `aggregate rows w xg` starts
  from the zero matrix of 100000 rows and adds, for every edge `e` whose row index lies in the matrix, the row
  `w e · xg (e, ·)` into row `rows e`; an edge whose index is out of range adds nothing. `wrap r` is the reading
  of a possibly negative index into an axis of 100000 entries: `r + 100000` where `r < 0`, else `r`.

  The reference scatters by the raw row indices; the kernel's program scatters by the wrapped ones. The two agree
  where no row index is negative (`wrap_of_nonneg`).
-/
import proofs.«176840_j47510928228756_2_alg».proof.Proof.Gen.ReferenceIdeal.Read
import Idealize.ShloMosaic.Lib.ValueIdx
import Idealize.ShloMosaic.Lib.Affine

noncomputable section

namespace Cert.Aggregate

open Cert.ReferenceIdeal Cert.ReferenceIdeal.Gen Idealize.ShloMosaic Idealize.ShloMosaic.TcCoe
open Cert.ReferenceIdeal.Read

/-- The wrapped index vector: `r + 100000` where `r` reads negative, `r` elsewhere. -/
def wrap (r : IVec S1600000 32) : IVec S1600000 32 :=
  select (cmpi .slt r (broadcastInDim S1600000 ![] bcast_S_S1600000 (constantI S_ 32 0#32)))
    (addi r (broadcastInDim S1600000 ![] bcast_S_S1600000 (constantI S_ 32 100000#32))) r

/-- Weighted feature rows added into the zero matrix at the rows the indices name. -/
def aggregate (rows : IVec S1600000 32) (w : FVec Ideal S1600000 .f32) (xg : FVec Ideal S1600000x128 .f32) :
    FVec Ideal S100000x128 .f32 :=
  Host.scatterAdd (F := Ideal) scatter_S100000x128_S1600000x1_S1600000x128_1_0_0_1
    (val_main_v37 (F := Ideal))
    (broadcastInDim S1600000x1 ![0] bcast_S1600000_S1600000x1_0 rows)
    (mulf (broadcastInDim S1600000x128 ![0, 1] bcast_S1600000x1_S1600000x128_0_1
      (broadcastInDim S1600000x1 ![0] bcast_S1600000_S1600000x1_0 w)) xg)

/-- The reference's aggregated features: scattered by the raw row indices. -/
theorem reference_features (x0 : FVec Ideal S100000x128 .f32) (x1 : IVec S2x1600000 32) (x2 : FVec Ideal S1600000 .f32) :
    val_main_v39 (F := Ideal) x0 x1 x2
      = aggregate (val_main_v1 (F := Ideal) x1) (val_main_v26 (F := Ideal) x1 x2) (val_main_v34 (F := Ideal) x0 x1) := rfl

/-- An index vector with no negative entry is its own wrap. -/
theorem wrap_of_nonneg (r : IVec S1600000 32) (h : ∀ e, 0 ≤ (r e).toInt) : wrap r = r := by
  funext e
  show Scalar.select (IntOp.cmpi .slt (r e) 0#32) (IntOp.addi (r e) 100000#32) (r e) = r e
  have hc : IntOp.cmpi .slt (r e) 0#32 = 0#1 := by
    apply ValueIdx.eq_zero_of_ne_one
    rw [IntOp.cmpi_slt]
    have h0 : (0#32 : BitVec 32).toInt = 0 := by decide
    have := h e
    omega
  rw [hc, ValueIdx.select_zero]

end Cert.Aggregate

end
-- ==== Proof.HostArrays.lean ====
/-
  The two arrays the kernel's call is given, as functions of the program's arguments.

  Before the call the program computes, on the host, the aggregated features (its first operand) and the transposed
  weights (its second operand). Composing the host operations: the aggregated features are `aggregate` of the WRAPPED row
  indices, of the per-edge weights and of the gathered feature rows — the same weights and the same gathered rows as
  the reference's, because a change of float format is the identity on the extended reals (the program gathers the
  features rounded to bf16 and widens them again) —, and the second operand is the weight matrix transposed.
-/
import proofs.«176840_j47510928228756_2_alg».proof.Proof.Gen.KernelIdeal.Frame
import proofs.«176840_j47510928228756_2_alg».proof.Proof.Aggregate
import Idealize.ShloMosaic.Lib.StableHlo.Run

noncomputable section

namespace Cert.HostArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 1000000 in
/-- The first operand: the weighted gathered rows added into the zero matrix at the wrapped row indices. -/
theorem features_eq (c : Dev nD) :
    (V m c (Pipeline.arrRef spec0 0) : S100000x128.Idx → EReal)
      = Cert.Aggregate.aggregate
          (Cert.Aggregate.wrap (Cert.ReferenceIdeal.Read.val_main_v1 (F := Ideal) (m ((c : Thread nD τ).loc main_arg1))))
          (Cert.ReferenceIdeal.Read.val_main_v26 (F := Ideal) (m ((c : Thread nD τ).loc main_arg1))
            (m ((c : Thread nD τ).loc main_arg2)))
          (Cert.ReferenceIdeal.Read.val_main_v34 (F := Ideal) (m ((c : Thread nD τ).loc main_arg0))
            (m ((c : Thread nD τ).loc main_arg1))) := by
  show StableHlo.after (List.flatten [hostOps0, hostOps0_1, hostOps0_2]) (fun b => m (c, b)) (Proc.devRef .tc main_v46) = _
  simp only [hostOps0, hostOps0_1, hostOps0_2, List.flatten_cons, List.flatten_nil, List.append_nil, List.cons_append,
    List.nil_append]
  after_results_simp
  -- the inverse square roots of the clipped degrees, `1 / sqrt (max eps deg)`, occur twice (gathered at the row and at
  -- the column of each edge): name them once and identify them with the reference's before comparing the rest
  generalize hD : Host.divf (F := Ideal) (s := S100000) (φ := .f32) _ (Host.sqrt _) = D
  have hD' : D = Cert.ReferenceIdeal.Read.val_main_v10 (F := Ideal) (m ((c : Thread nD τ).loc main_arg1))
      (m ((c : Thread nD τ).loc main_arg2)) := by
    rw [← hD]
    unfold Cert.ReferenceIdeal.Read.val_main_v10 Cert.ReferenceIdeal.Read.val_main_v8 Cert.ReferenceIdeal.Read.val_main_v7
    refine congrArg₂ Host.divf rfl (congrArg Host.sqrt ?_)
    -- the clip: the maximum of the broadcast `eps` and the degrees (the segment sum of the edge values by row)
    show maximumf _ _ = maximumf _ _
    exact congrArg₂ maximumf rfl rfl
  rw [hD']
  rfl

set_option maxRecDepth 8192 in
set_option maxHeartbeats 2000000 in
/-- The second operand: the weight matrix transposed. -/
theorem weights_eq (c : Dev nD) :
    (V m c (Pipeline.arrRef spec0 1) : S128x128.Idx → EReal)
      = Cert.ReferenceIdeal.Read.val_main_v40 (F := Ideal) (m ((c : Thread nD τ).loc main_arg3)) := by
  show StableHlo.after (List.flatten [hostOps0, hostOps0_1, hostOps0_2]) (fun b => m (c, b)) (Proc.devRef .tc main_v47) = _
  simp only [hostOps0, hostOps0_1, hostOps0_2, List.flatten_cons, List.flatten_nil, List.append_nil, List.cons_append,
    List.nil_append]
  after_results_simp
  rfl

end Cert.HostArrays

end
-- ==== Proof.RowIndices.lean ====
/-
  What the precondition says of the row indices.

  The precondition is a conjunction of four tests, each an `and` over a whole array: the three float arguments are
  finite, and every row index (row 0 of the edge list) is not negative, read signed. Its last conjunct, read back
  at one edge `e`: the row index of `e` is at least 0.
-/
import proofs.«176840_j47510928228756_2_alg».proof.Pre_finite_inputs
import proofs.«176840_j47510928228756_2_alg».proof.Proof.Gen.Pre_finite_inputs
import proofs.«176840_j47510928228756_2_alg».proof.Proof.Gen.ReferenceIdeal.Read
import Idealize.ShloMosaic.Lib.ReduceAll
import Idealize.ShloMosaic.Lib.ValueIdx

noncomputable section

namespace Cert.RowIndices

open Idealize.ShloMosaic

/-- A scalar has one index. -/
instance : Subsingleton (⟨0, ![]⟩ : Shape).Idx := ⟨fun a b => funext fun d => d.elim0⟩

/-- Under the precondition no row index is negative. -/
theorem rows_nonneg (a0 : FVec Ideal ⟨2, ![100000, 128]⟩ .f32) (a1 : IVec ⟨2, ![2, 1600000]⟩ 32)
    (a2 : FVec Ideal ⟨1, ![1600000]⟩ .f32) (a3 : FVec Ideal ⟨2, ![128, 128]⟩ .f32)
    (h : Cert.Pre_finite_inputs.fn (F := Ideal) a0 a1 a2 a3 = fun _ => 1#1) (e : (⟨1, ![1600000]⟩ : Shape).Idx) :
    0 ≤ (Cert.ReferenceIdeal.Read.val_main_v1 (F := Ideal) a1 e).toInt := by
  have e0 := congrFun h ValueIdx.ix0
  unfold Cert.Pre_finite_inputs.fn Cert.Pre_finite_inputs.fn_part1 at e0
  dsimp only at e0
  -- the last conjunct: the `and` over all edges of the test `row ≥ 0`
  have e1 := (IntOp.andi_eq_one.mp e0).2
  -- at edge `e`
  have e2 : IntOp.cmpi .sge (Cert.ReferenceIdeal.Read.val_main_v1 (F := Ideal) a1 e) (0#32) = 1#1 :=
    Host.reduce_andi_all _ _ _ _ ValueIdx.ix0 e1 e
  have e3 := IntOp.cmpi_sge.mp e2
  have h0 : (0#32 : BitVec 32).toInt = 0 := by decide
  omega

end Cert.RowIndices

end
-- ==== Proof.Reference.lean ====
/-
  The reference's result as the dense layer of its aggregated features.

  The reference ends with the host's matrix product of the aggregated features with the transposed weights and the
  rectifier `max (·) 0`. On the extended reals the host's product at `(r, c)` is the sum over `h` of the left operand
  at `(r, h)` times the right operand at `(h, c)`, so the result is `layer` of the two operands.
-/
import proofs.«176840_j47510928228756_2_alg».proof.Proof.Gen.ReferenceIdeal.Read
import proofs.«176840_j47510928228756_2_alg».proof.Proof.DenseRelu

noncomputable section

namespace Cert.Reference

open Cert.ReferenceIdeal Cert.ReferenceIdeal.Gen Idealize.ShloMosaic Idealize.ShloMosaic.ValueIdx
open Cert.ReferenceIdeal.Read

/-- The contracted coordinate `k` on the left: row `r`, column `k`. -/
theorem left_index (r : Fin 100000) (c : Fin 128) (k : Fin 128) : lidx_main_v41 (ix2 r c) k = ix2 r k :=
  funext fun a => Fin.ext (by match a with | ⟨0, _⟩ => rfl | ⟨1, _⟩ => rfl)

/-- The contracted coordinate `k` on the right: row `k`, column `c`. -/
theorem right_index (r : Fin 100000) (c : Fin 128) (k : Fin 128) : ridx_main_v41 (ix2 r c) k = ix2 k c :=
  funext fun a => Fin.ext (by match a with | ⟨0, _⟩ => rfl | ⟨1, _⟩ => rfl)

/-- The reference's result is the rectified product of its aggregated features with the transposed weights. -/
theorem result_eq (x0 : FVec Ideal S100000x128 .f32) (x1 : IVec S2x1600000 32) (x2 : FVec Ideal S1600000 .f32)
    (x3 : FVec Ideal S128x128 .f32) :
    val_main_v42 (F := Ideal) x0 x1 x2 x3
      = Cert.DenseRelu.layer (val_main_v39 (F := Ideal) x0 x1 x2) (val_main_v40 (F := Ideal) x3) := by
  funext i
  obtain ⟨r, c, rfl⟩ : ∃ (r : Fin 100000) (c : Fin 128), i = ix2 r c := ⟨i 0, i 1, eq_ix2 i⟩
  rw [val_main_v42_apply, val_main_v41_apply, Cert.DenseRelu.layer_apply]
  simp only [left_index, right_index]
  rfl

end Cert.Reference

end
-- ==== Proof.lean ====
/-
  A graph-convolution layer: the kernel's program against its reference, on the extended reals.

  Both programs first normalise the edge weights by the clipped degrees (`v = values · d[row] · d[col]` with
  `d = 1 / sqrt (max (segment sum of values by row) eps)`), aggregate the weighted feature rows `v e · X[col e]` into
  the row `row e` of a zero matrix `AX`, and end with `relu (AX · Wᵀ)`.

  The kernel's program differs from the reference in three places. It gathers the features rounded to bf16 and
  rounds both operands of the last product to bf16: on the extended reals a change of float format is the identity.
  It computes the last product and the rectifier in a call over ten blocks of 10000 rows, on the matrix unit: block
  by block that is the same sum of products. And it adds the weighted rows with `.at[row].add`, which reads a
  negative row index `r` as `r + 100000`, where the reference's segment sum drops a negative index: the two agree
  where no row index is negative, which the precondition states (a negative row index is out of the range of the
  reference's segment sums).

  The modules: `DenseRelu` (the last layer as one function `layer A B`), `KernelBlock` and `KernelArray` (the call's
  result array is `layer` of its two operands), `HostArrays` (the two operands as the host operations leave them),
  `Aggregate` (the aggregation named once, and the wrapped indices), `RowIndices` (the precondition read at one edge),
  `Reference` (the reference's result is `layer` of its own aggregated features and transposed weights).
-/
import proofs.«176840_j47510928228756_2_alg».proof.Defs
import proofs.«176840_j47510928228756_2_alg».proof.Proof.Gen.Kernel
import proofs.«176840_j47510928228756_2_alg».proof.Proof.Gen.Kernel.Skeleton
import proofs.«176840_j47510928228756_2_alg».proof.Proof.Gen.Kernel.Launch
import proofs.«176840_j47510928228756_2_alg».proof.Proof.Gen.Kernel.Points
import proofs.«176840_j47510928228756_2_alg».proof.Proof.Gen.Kernel.Frame
import proofs.«176840_j47510928228756_2_alg».proof.Proof.Gen.KernelIdeal
import proofs.«176840_j47510928228756_2_alg».proof.Proof.Gen.KernelIdeal.Skeleton
import proofs.«176840_j47510928228756_2_alg».proof.Proof.Gen.KernelIdeal.Launch
import proofs.«176840_j47510928228756_2_alg».proof.Proof.Gen.KernelIdeal.Points
import proofs.«176840_j47510928228756_2_alg».proof.Proof.Gen.KernelIdeal.Frame
import proofs.«176840_j47510928228756_2_alg».proof.Proof.Gen.ReferenceIdeal
import proofs.«176840_j47510928228756_2_alg».proof.Proof.Gen.Pre_finite_inputs
import proofs.«176840_j47510928228756_2_alg».proof.Proof.Gen.KernelIdeal.Value
import proofs.«176840_j47510928228756_2_alg».proof.Proof.Gen.ReferenceIdeal.Run
import proofs.«176840_j47510928228756_2_alg».proof.Proof.Gen.ReferenceIdeal.Read
import proofs.«176840_j47510928228756_2_alg».proof.Proof.KernelArray
import proofs.«176840_j47510928228756_2_alg».proof.Proof.HostArrays
import proofs.«176840_j47510928228756_2_alg».proof.Proof.Aggregate
import proofs.«176840_j47510928228756_2_alg».proof.Proof.RowIndices
import proofs.«176840_j47510928228756_2_alg».proof.Proof.Reference
import Idealize.ShloMosaic.Adequacy
import Idealize.ShloMosaic.Init

noncomputable section

namespace Cert.Proof

open Idealize.ShloMosaic Idealize.ShloMosaic.TcCoe Idealize.SL.Sem

/-! ## The three frames and the idealization -/

theorem frame_kernel : Cert.frame_Kernel := fun m ρ _ => Cert.Kernel.Gen.frame m ρ

theorem frame_kernel_ideal : Cert.frame_KernelIdeal := fun m ρ _ => Cert.KernelIdeal.Gen.frame m ρ

/-- The reference has no call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized program is the program's own text read on the extended reals: nothing was rewritten. -/
theorem preserves : Cert.preserves_Kernel_KernelIdeal := trivial

/-! ## The two results are one function of the arguments -/

/-- After the kernel's run, under the precondition, its result array is `layer` of the REFERENCE's aggregated features
    and transposed weights of the same arguments: the call's result is `layer` of its operands, the operands are the
    aggregation at the wrapped row indices and the transposed weights, and no row index is negative. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.dats m 0 c).arrAt 2 Cert.KernelIdeal.cfg0.N
      = Cert.DenseRelu.layer
          (Cert.ReferenceIdeal.Read.val_main_v39 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          (Cert.ReferenceIdeal.Read.val_main_v40 (F := Ideal)
            (m ((c.tc : Thread Cert.KernelIdeal.nD Cert.KernelIdeal.τ).loc Cert.KernelIdeal.main_arg3))) := by
  rw [Cert.KernelArray.final, Cert.HostArrays.features_eq, Cert.HostArrays.weights_eq,
    Cert.Aggregate.wrap_of_nonneg _ (Cert.RowIndices.rows_nonneg _ _ _ _ (hpre c)),
    ← Cert.Aggregate.reference_features]

theorem algebraic : Cert.algebraic_KernelIdeal_ReferenceIdeal := by
  intro m ρ m' ρ' hpre hagree
  refine ⟨fun c => Cert.DenseRelu.layer
      (Cert.ReferenceIdeal.Read.val_main_v39 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.ReferenceIdeal.Read.val_main_v40 (F := Ideal)
        (m ((c.tc : Thread Cert.KernelIdeal.nD Cert.KernelIdeal.τ).loc Cert.KernelIdeal.main_arg3))), ?_, ?_⟩
  · exact (θ_run Cert.KernelIdeal.defs _ _).mono (fun r h c => ⟨(h c).1.trans (kernel_result m hpre c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, (hagree c).1, (hagree c).2.1, (hagree c).2.2.1, (hagree c).2.2.2]
    exact Cert.Reference.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
